-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S4096x31 : Shape := ⟨2, ![4096, 31]⟩
abbrev S128x16384 : Shape := ⟨2, ![128, 16384]⟩
abbrev S128x31 : Shape := ⟨2, ![128, 31]⟩
abbrev S128x1024 : Shape := ⟨2, ![128, 1024]⟩
abbrev S128 : Shape := ⟨1, ![128]⟩
abbrev S128x1 : Shape := ⟨2, ![128, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x16384, .f32⟩
  | .hbm, ⟨1, _⟩ => ⟨S4096x31, .f32⟩
  | .local _ .vmem, ⟨0, _⟩ => ⟨S128x16384, .f32⟩
  | .local _ .vmem, ⟨1, _⟩ => ⟨S128x16384, .f32⟩
  | .local _ .vmem, ⟨2, _⟩ => ⟨S128x31, .f32⟩
  | .local _ .vmem, ⟨3, _⟩ => ⟨S128x31, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x31 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x16384_S128x1024_0_0 : ∀ a, (![0, 0] : Fin 2 → Nat) a + S128x1024.size a ≤ S128x16384.size a
  h_S128x1024 : 0 < S128x1024.numel
  reduces_S128x1024_S128 : S128x1024.Reduces [1] S128
  shapeCasts_S128_S128x1 : S128.ShapeCasts S128x1
  inb_S128x16384_S128x1024_0_1024 : ∀ a, (![0, 1024] : Fin 2 → Nat) a + S128x1024.size a ≤ S128x16384.size a
  inb_S128x16384_S128x1024_0_2048 : ∀ a, (![0, 2048] : Fin 2 → Nat) a + S128x1024.size a ≤ S128x16384.size a
  inb_S128x16384_S128x1024_0_3072 : ∀ a, (![0, 3072] : Fin 2 → Nat) a + S128x1024.size a ≤ S128x16384.size a
  inb_S128x16384_S128x1024_0_4096 : ∀ a, (![0, 4096] : Fin 2 → Nat) a + S128x1024.size a ≤ S128x16384.size a
  inb_S128x16384_S128x1024_0_5120 : ∀ a, (![0, 5120] : Fin 2 → Nat) a + S128x1024.size a ≤ S128x16384.size a
  inb_S128x16384_S128x1024_0_6144 : ∀ a, (![0, 6144] : Fin 2 → Nat) a + S128x1024.size a ≤ S128x16384.size a
  inb_S128x16384_S128x1024_0_7168 : ∀ a, (![0, 7168] : Fin 2 → Nat) a + S128x1024.size a ≤ S128x16384.size a
  inb_S128x16384_S128x1024_0_8192 : ∀ a, (![0, 8192] : Fin 2 → Nat) a + S128x1024.size a ≤ S128x16384.size a
  inb_S128x16384_S128x1024_0_9216 : ∀ a, (![0, 9216] : Fin 2 → Nat) a + S128x1024.size a ≤ S128x16384.size a
  inb_S128x16384_S128x1024_0_10240 : ∀ a, (![0, 10240] : Fin 2 → Nat) a + S128x1024.size a ≤ S128x16384.size a
  inb_S128x16384_S128x1024_0_11264 : ∀ a, (![0, 11264] : Fin 2 → Nat) a + S128x1024.size a ≤ S128x16384.size a
  inb_S128x16384_S128x1024_0_12288 : ∀ a, (![0, 12288] : Fin 2 → Nat) a + S128x1024.size a ≤ S128x16384.size a
  inb_S128x16384_S128x1024_0_13312 : ∀ a, (![0, 13312] : Fin 2 → Nat) a + S128x1024.size a ≤ S128x16384.size a
  inb_S128x16384_S128x1024_0_14336 : ∀ a, (![0, 14336] : Fin 2 → Nat) a + S128x1024.size a ≤ S128x16384.size a
  inb_S128x16384_S128x1024_0_15360 : ∀ a, (![0, 15360] : Fin 2 → Nat) a + S128x1024.size a ≤ S128x16384.size a
  concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x31_d1 : Shape.Concatenates [S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1] S128x31 1
  inb_S128x31_S128x31_0_0 : ∀ a, (![0, 0] : Fin 2 → Nat) a + S128x31.size a ≤ S128x31.size a
  h_S128x31 : 0 < S128x31.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S4096x16384.size a
  hwx0_0 : ∀ i : grid0.Coords, EltTy.bits .f32 = 32 ∨ (Rect.block (s := S4096x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x31.size a ≤ S4096x31.size a
  hwx0_1 : ∀ i : grid0.Coords, EltTy.bits .f32 = 32 ∨ (Rect.block (s := S4096x31) S128x31.size (cc0_transform_1 i) (hinb0_1 i)).WholeWords (EltTy.packing .f32)

variable [Facts₀]

abbrev win0_0 : Pipeline.Window sig grid0 :=
  Pipeline.Window.ofSpec (Memref.whole main_arg0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x31.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩
abbrev S4096x1x8192 : Shape := ⟨3, ![4096, 1, 8192]⟩
abbrev S4096x2 : Shape := ⟨2, ![4096, 2]⟩
abbrev S4096x12288 : Shape := ⟨2, ![4096, 12288]⟩
abbrev S4096x3x4096 : Shape := ⟨3, ![4096, 3, 4096]⟩
abbrev S4096x3 : Shape := ⟨2, ![4096, 3]⟩
abbrev S4096x4096 : Shape := ⟨2, ![4096, 4096]⟩
abbrev S4096x4 : Shape := ⟨2, ![4096, 4]⟩
abbrev S4096x14336 : Shape := ⟨2, ![4096, 14336]⟩
abbrev S4096x7x2048 : Shape := ⟨3, ![4096, 7, 2048]⟩
abbrev S4096x7 : Shape := ⟨2, ![4096, 7]⟩
abbrev S4096x2048 : Shape := ⟨2, ![4096, 2048]⟩
abbrev S4096x8 : Shape := ⟨2, ![4096, 8]⟩
abbrev S4096x15360 : Shape := ⟨2, ![4096, 15360]⟩
abbrev S4096x15x1024 : Shape := ⟨3, ![4096, 15, 1024]⟩
abbrev S4096x15 : Shape := ⟨2, ![4096, 15]⟩
abbrev S4096x1024 : Shape := ⟨2, ![4096, 1024]⟩
abbrev S4096x16 : Shape := ⟨2, ![4096, 16]⟩
abbrev S4096x31 : Shape := ⟨2, ![4096, 31]⟩

abbrev nBuf : Space → Nat
  | .hbm => 41
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S_, .f32⟩
  | .hbm, ⟨2, _⟩ => ⟨S4096, .f32⟩
  | .hbm, ⟨3, _⟩ => ⟨S4096x1, .f32⟩
  | .hbm, ⟨4, _⟩ => ⟨S4096x8192, .f32⟩
  | .hbm, ⟨5, _⟩ => ⟨S4096x1x8192, .f32⟩
  | .hbm, ⟨6, _⟩ => ⟨S_, .f32⟩
  | .hbm, ⟨7, _⟩ => ⟨S4096x1, .f32⟩
  | .hbm, ⟨8, _⟩ => ⟨S4096x8192, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S4096x2, .f32⟩
  | .hbm, ⟨13, _⟩ => ⟨S4096x12288, .f32⟩
  | .hbm, ⟨14, _⟩ => ⟨S4096x3x4096, .f32⟩
  | .hbm, ⟨15, _⟩ => ⟨S_, .f32⟩
  | .hbm, ⟨16, _⟩ => ⟨S4096x3, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x4, .f32⟩
  | .hbm, ⟨22, _⟩ => ⟨S4096x14336, .f32⟩
  | .hbm, ⟨23, _⟩ => ⟨S4096x7x2048, .f32⟩
  | .hbm, ⟨24, _⟩ => ⟨S_, .f32⟩
  | .hbm, ⟨25, _⟩ => ⟨S4096x7, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x8, .f32⟩
  | .hbm, ⟨31, _⟩ => ⟨S4096x15360, .f32⟩
  | .hbm, ⟨32, _⟩ => ⟨S4096x15x1024, .f32⟩
  | .hbm, ⟨33, _⟩ => ⟨S_, .f32⟩
  | .hbm, ⟨34, _⟩ => ⟨S4096x15, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x16, .f32⟩
  | .hbm, ⟨40, _⟩ => ⟨S4096x31, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  reducesTo_S4096x16384_S4096_d1 : S4096x16384.ReducesTo [1] S4096
  h_S_ : 0 < S_.numel
  bcast_S4096_S4096x1_0 : S4096.BroadcastsInDim S4096x1 (![0] : Fin 1 → Fin S4096x1.rank)
  slices_S4096x16384_S4096x8192_0_0 : S4096x16384.Slices ![0, 0] S4096x8192
  shapeCasts_S4096x8192_S4096x1x8192 : S4096x8192.ShapeCasts S4096x1x8192
  reducesTo_S4096x1x8192_S4096x1_d2 : S4096x1x8192.ReducesTo [2] S4096x1
  slices_S4096x16384_S4096x8192_0_8192 : S4096x16384.Slices ![0, 8192] S4096x8192
  reducesTo_S4096x8192_S4096_d1 : S4096x8192.ReducesTo [1] S4096
  concatenates_S4096x1_S4096x1_S4096x2_d1 : Shape.Concatenates [S4096x1, S4096x1] S4096x2 1
  slices_S4096x16384_S4096x12288_0_0 : S4096x16384.Slices ![0, 0] S4096x12288
  shapeCasts_S4096x12288_S4096x3x4096 : S4096x12288.ShapeCasts S4096x3x4096
  reducesTo_S4096x3x4096_S4096x3_d2 : S4096x3x4096.ReducesTo [2] S4096x3
  slices_S4096x16384_S4096x4096_0_12288 : S4096x16384.Slices ![0, 12288] S4096x4096
  reducesTo_S4096x4096_S4096_d1 : S4096x4096.ReducesTo [1] S4096
  concatenates_S4096x3_S4096x1_S4096x4_d1 : Shape.Concatenates [S4096x3, S4096x1] S4096x4 1
  slices_S4096x16384_S4096x14336_0_0 : S4096x16384.Slices ![0, 0] S4096x14336
  shapeCasts_S4096x14336_S4096x7x2048 : S4096x14336.ShapeCasts S4096x7x2048
  reducesTo_S4096x7x2048_S4096x7_d2 : S4096x7x2048.ReducesTo [2] S4096x7
  slices_S4096x16384_S4096x2048_0_14336 : S4096x16384.Slices ![0, 14336] S4096x2048
  reducesTo_S4096x2048_S4096_d1 : S4096x2048.ReducesTo [1] S4096
  concatenates_S4096x7_S4096x1_S4096x8_d1 : Shape.Concatenates [S4096x7, S4096x1] S4096x8 1
  slices_S4096x16384_S4096x15360_0_0 : S4096x16384.Slices ![0, 0] S4096x15360
  shapeCasts_S4096x15360_S4096x15x1024 : S4096x15360.ShapeCasts S4096x15x1024
  reducesTo_S4096x15x1024_S4096x15_d2 : S4096x15x1024.ReducesTo [2] S4096x15
  slices_S4096x16384_S4096x1024_0_15360 : S4096x16384.Slices ![0, 15360] S4096x1024
  reducesTo_S4096x1024_S4096_d1 : S4096x1024.ReducesTo [1] S4096
  concatenates_S4096x15_S4096x1_S4096x16_d1 : Shape.Concatenates [S4096x15, S4096x1] S4096x16 1
  concatenates_S4096x1_S4096x2_S4096x4_S4096x8_S4096x16_S4096x31_d1 : Shape.Concatenates [S4096x1, S4096x2, S4096x4, S4096x8, S4096x16] S4096x31 1

variable [Facts₀]

class Facts : Prop extends Facts₀ where

variable [Facts]
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.Pool.lean ====
/-
  Multi-resolution max pooling of the rows of a [4096, 16384] array, as ONE function of the array.

  A row of 16384 entries is cut into 1, 2, 4, 8 and 16 equal bins (of 16384, 8192, 4096, 2048 and 1024 entries); the
  result row lists the 1 + 2 + 4 + 8 + 16 = 31 bin maxima in that order. So column 0 is the maximum of the whole row,
  columns 1–2 the maxima of its two halves, columns 3–6 of its quarters, columns 7–14 of its eighths and columns 15–30
  of its sixteenths: column `j` is the supremum of the row over the run of `binWidth j` positions from `binStart j`.
  The supremum is taken in the extended reals, from the bottom element: it is the maximum of the bin's entries.

  Both programs compute this function. One takes each bin's maximum directly; the other takes the sixteen finest maxima
  and combines neighbours pairwise, level by level. They agree because the supremum over a run that is cut in two is the
  larger of the two parts' suprema (LibSegSup.lean, `segSup_add`) — an order fact, true of every extended real, so no
  finiteness of the entries is needed.
-/
import Idealize.ShloMosaic.Lib.ValueIdx
import Idealize.ShloMosaic.PureOps.Ideal
import proofs.«142918_g69295002353911_feedfinal_601_4_alg».proof.Proof.LibSegSup

noncomputable section

namespace Cert.Pool

open Idealize.ShloMosaic Idealize.ShloMosaic.ValueIdx SegSup

/-- Row `r` of an [R, W] array as a function of the position in the row (the bottom element past the row's end, where
    no bin reaches). -/
def rowOf {R W : ℕ} (x : (⟨2, ![R, W]⟩ : Shape).Idx → EReal) (r : Fin R) : ℕ → EReal :=
  fun k => if h : k < W then x (ix2 r ⟨k, h⟩) else ⊥

theorem rowOf_lt {R W : ℕ} (x : (⟨2, ![R, W]⟩ : Shape).Idx → EReal) (r : Fin R) {k : ℕ} (h : k < W) :
    rowOf x r k = x (ix2 r ⟨k, h⟩) := dif_pos h

/-- The number of entries in output column `j`'s bin. -/
def binWidth (j : ℕ) : ℕ :=
  if j < 1 then 16384 else if j < 3 then 8192 else if j < 7 then 4096 else if j < 15 then 2048 else 1024

/-- The position in the row where output column `j`'s bin starts. -/
def binStart (j : ℕ) : ℕ :=
  if j < 1 then 0 else if j < 3 then (j - 1) * 8192 else if j < 7 then (j - 3) * 4096
  else if j < 15 then (j - 7) * 2048 else (j - 15) * 1024

/-- The pooled array of an [R, 16384] array: entry (r, j) is the supremum of row `r` over column `j`'s bin. -/
def pooled {R : ℕ} (x : (⟨2, ![R, 16384]⟩ : Shape).Idx → EReal) : (⟨2, ![R, 31]⟩ : Shape).Idx → EReal :=
  fun y => segSup (rowOf x (y 0)) (binStart (y 1).val) (binWidth (y 1).val)

/-! The five column ranges: where each resolution's bins start, and their width. -/

theorem bin_whole {j : ℕ} (h : j < 1) : binStart j = 0 ∧ binWidth j = 16384 := by
  unfold binStart binWidth; constructor <;> split_ifs <;> first | rfl | omega
theorem bin_halves {j : ℕ} (h1 : 1 ≤ j) (h2 : j < 3) : binStart j = (j - 1) * 8192 ∧ binWidth j = 8192 := by
  unfold binStart binWidth; constructor <;> split_ifs <;> first | rfl | omega
theorem bin_quarters {j : ℕ} (h1 : 3 ≤ j) (h2 : j < 7) : binStart j = (j - 3) * 4096 ∧ binWidth j = 4096 := by
  unfold binStart binWidth; constructor <;> split_ifs <;> first | rfl | omega
theorem bin_eighths {j : ℕ} (h1 : 7 ≤ j) (h2 : j < 15) : binStart j = (j - 7) * 2048 ∧ binWidth j = 2048 := by
  unfold binStart binWidth; constructor <;> split_ifs <;> first | rfl | omega
theorem bin_sixteenths {j : ℕ} (h1 : 15 ≤ j) : binStart j = (j - 15) * 1024 ∧ binWidth j = 1024 := by
  unfold binStart binWidth; constructor <;> split_ifs <;> first | rfl | omega

theorem pooled_ix2 {R : ℕ} (x : (⟨2, ![R, 16384]⟩ : Shape).Idx → EReal) (r : Fin R) (j : Fin 31) :
    pooled x (ix2 r j) = segSup (rowOf x r) (binStart j.val) (binWidth j.val) := rfl

/-- A family indexed by `Fin w` whose entry `k` is the row's entry at position `a + k` has the supremum of the row over
    the run of `w` positions from `a` (the run lies inside the row). -/
theorem sup_row_segment {R W : ℕ} (x : (⟨2, ![R, W]⟩ : Shape).Idx → EReal) (r : Fin R) (a w : ℕ) (haw : a + w ≤ W)
    (g : Fin w → EReal) (hg : ∀ k : Fin w, g k = x (ix2 r ⟨a + k.val, by have := k.isLt; omega⟩)) :
    (Finset.univ : Finset (Fin w)).sup g = segSup (rowOf x r) a w := by
  rw [← sup_univ_fin]
  exact Finset.sup_congr rfl fun k _ => (hg k).trans (rowOf_lt x r _).symm

/-- The larger of the suprema over two adjacent runs is the supremum over their union. -/
theorem max_segSup (f : ℕ → EReal) (a n b n' : ℕ) (h : b = a + n) :
    max (segSup f a n) (segSup f b n') = segSup f a (n + n') := by
  subst h; exact (segSup_add f a n n').symm

end Cert.Pool

end
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«142918_g69295002353911_feedfinal_601_4_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.KernelBlock.lean ====
/-
  What the kernel's body leaves in its output block, entry by entry. The body sees one [128, 16384] block `x0` of the argument
  (128 rows, whole rows) and writes one [128, 31] block. It loads the block as sixteen [128, 1024] pieces, at columns 0, 1024, …,
  15360, and takes each piece's maximum along the row from −∞: sixteen lane maxima per row. It then combines neighbours pairwise —
  eight, four, two, one — and writes, side by side, the one, the two, the four, the eight and the sixteen.

  Lane maximum `i` of row `p` is the supremum of row `p` of the block over the 1024 positions from `1024 i`; the larger of the
  suprema over two adjacent runs is the supremum over their union (`max_segSup`). So the entry written in column `q` of row `p` is
  the supremum of row `p` of the block over column `q`'s bin: the block the body leaves is `pooled` of the block it was given.
-/
import proofs.«142918_g69295002353911_feedfinal_601_4_alg».proof.Proof.KernelValueP
import proofs.«142918_g69295002353911_feedfinal_601_4_alg».proof.Proof.Pool
import proofs.«142918_g69295002353911_feedfinal_601_4_alg».proof.Proof.LibHostMax

noncomputable section

namespace Cert.KernelIdeal.Block

open Cert.KernelIdeal Cert.KernelIdeal.Gen Cert.KernelIdeal.ValueP Idealize.ShloMosaic Idealize.ShloMosaic.TcCoe Idealize.SL.Sem
open Idealize.ShloMosaic.ValueIdx SegSup Cert.Pool

/-- A load of 1024 columns from column `o` of the block, at (p, k), is the block's entry (p, o + k). -/
theorem ld_at (x0 : Vec Ideal S128x16384 .f32) (o : ℕ) (hin : ∀ a, (![0, o] : Fin 2 → Nat) a + S128x1024.size a ≤ S128x16384.size a)
    (p : Fin 128) (k : Fin 1024) (hk : o + k.val < 16384) :
    View.ld x0 (Rect.unit (s := S128x16384) ![0, o] S128x1024.size hin) (ix2 p k) = x0 (ix2 p ⟨o + k.val, hk⟩) := by
  show x0 ((Rect.unit (s := S128x16384) ![0, o] S128x1024.size hin).emb (ix2 p k)) = _
  refine congrArg x0 (funext fun a => Fin.ext ?_)
  match a with
  | ⟨0, _⟩ => show 0 + 1 * p.val = p.val; omega
  | ⟨1, _⟩ => show o + 1 * k.val = o + k.val; omega

/-- One lane maximum, as a column entry: the supremum of row `p` of the block over the 1024 positions from `o`. -/
theorem lane_max (x0 : Vec Ideal S128x16384 .f32) (o : ℕ) (ho : o + 1024 ≤ 16384)
    (hin : ∀ a, (![0, o] : Fin 2 → Nat) a + S128x1024.size a ≤ S128x16384.size a) (p : Fin 128) (q : Fin 31) :
    shapeCast S128x1 (multiReduction (F := Ideal) .maximumf [1] S128 (View.ld x0 (Rect.unit (s := S128x16384) ![0, o] S128x1024.size hin))
        0xFF800000#32 reduces_S128x1024_S128 (.inl rfl) rfl) shapeCasts_S128_S128x1 (ix1_0 (ix2 p q))
      = segSup (rowOf x0 p) o 1024 := by
  refine (HostMax.shapeCast_col_apply _ shapeCasts_S128_S128x1 (ix1_0 (ix2 p q)) p rfl).trans ?_
  refine (HostMax.multiReduction_rows (View.ld x0 (Rect.unit (s := S128x16384) ![0, o] S128x1024.size hin))
    reduces_S128x1024_S128 (.inl rfl) rfl p).trans ?_
  exact sup_row_segment x0 p o 1024 ho _ (fun k => ld_at x0 o hin p k (by have := k.isLt; omega))

/-- At block index (p, q) the block's function reads operand `q` of the concatenation, at row `p`. -/
theorem E1_at (P0 P1 P2 P3 P4 P5 P6 P7 P8 P9 P10 P11 P12 P13 P14 P15 : Vec Ideal S128x1024 .f32) (p : Fin 128) (q : Fin 31) :
    E1 P0 P1 P2 P3 P4 P5 P6 P7 P8 P9 P10 P11 P12 P13 P14 P15 (ix2 p q)
      = Cat1_0 P0 P1 P2 P3 P4 P5 P6 P7 P8 P9 P10 P11 P12 P13 P14 P15 q (ix1_0 (ix2 p q)) := rfl

/-- THE BLOCK THE BODY LEAVES: entry (p, q) is the supremum of row `p` of the input block over column `q`'s bin. Column by
    column: the selected operand is a tree of pairwise maxima over lane maxima; each lane maximum is the supremum over its 1024
    positions, and adjacent runs merge, level by level, into the bin. -/
theorem block_value (x0 : Vec Ideal S128x16384 .f32) (p : Fin 128) (q : Fin 31) :
    out0_1 (F := Ideal) x0 (ix2 p q) = segSup (rowOf x0 p) (binStart q.val) (binWidth q.val) := by
  unfold out0_1
  rw [canon1_eq, E1_at]
  rcases q with ⟨qv, hq⟩
  interval_cases qv <;>
    simp only [Cat1_0] <;>
    simp (disch := decide) only [maximumf_apply, lane_max x0 0 (by omega), lane_max x0 1024 (by omega), lane_max x0 2048 (by omega), lane_max x0 3072 (by omega), lane_max x0 4096 (by omega), lane_max x0 5120 (by omega), lane_max x0 6144 (by omega), lane_max x0 7168 (by omega), lane_max x0 8192 (by omega), lane_max x0 9216 (by omega), lane_max x0 10240 (by omega), lane_max x0 11264 (by omega), lane_max x0 12288 (by omega), lane_max x0 13312 (by omega), lane_max x0 14336 (by omega), lane_max x0 15360 (by omega), max_segSup] <;>
    rfl

end Cert.KernelIdeal.Block

end
-- ==== Proof.KernelPooled.lean ====
/-
  From blocks to the array: what the kernel's result array holds after its run. The grid has 32 points; point `t` is handed
  rows `128 t … 128 t + 127` of the argument, whole rows, and writes back rows `128 t … 128 t + 127` of the result, all 31
  columns. Row `p` of point `t`'s input block is row `128 t + p` of the argument, so the block the body leaves there
  (`block_value`: the pooled block of the block it was given) is block `t` of the pooled ARRAY of the argument. The 32 output
  blocks tile the result's 4096 rows — row `r` lies in the block of point `r / 128` — so after the run the result array is the
  pooled array of the argument, and the argument is unchanged.
-/
import proofs.«142918_g69295002353911_feedfinal_601_4_alg».proof.Proof.KernelBlock

noncomputable section

namespace Cert.KernelIdeal.Pooled

open Cert.KernelIdeal Cert.KernelIdeal.Gen Cert.KernelIdeal.ValueP Cert.KernelIdeal.Block Idealize.ShloMosaic Idealize.ShloMosaic.TcCoe Idealize.SL.Sem
open Idealize.ShloMosaic.Pipeline (Dat)
open Idealize.ShloMosaic.ValueIdx SegSup Cert.Pool

variable (m : (ℓ : Loc nD τ sig) → Buf (Elt Ideal) ℓ) (ρ : Dev nD → PrngReg)

/-- The printed index maps, decided over the 32 grid points: point `t`'s input block and output block are both row block `t`,
    and neither moves along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The argument array as the region finds it, as a function of (row, position). -/
abbrev argArr (c : Dev nD) : (⟨2, ![4096, 16384]⟩ : Shape).Idx → EReal := V m c main_arg0

/-- Row `p` of point `t`'s input block is row `128 t + p` of the argument. -/
theorem row_iblk (c : Dev nD) (t : Fin cfg0.N) (p : Fin 128) (hr : t.val * 128 + p.val < 4096) :
    rowOf (R := 128) (W := 16384) (iblk m c 0 t) p = rowOf (argArr m c) ⟨t.val * 128 + p.val, hr⟩ := by
  obtain ⟨e0, e1, -, -⟩ := idx_facts t
  funext k
  unfold rowOf
  by_cases hk : k < 16384
  · rw [dif_pos hk, dif_pos hk]
    show V m c main_arg0 (((cfg0.win 0).blk t).view.emb (ix2 p (⟨k, hk⟩ : Fin 16384)))
      = V m c main_arg0 (ix2 (⟨t.val * 128 + p.val, hr⟩ : Fin 4096) (⟨k, hk⟩ : Fin 16384))
    refine congrArg (V m c main_arg0) (funext fun a => Fin.ext ?_)
    match a with
    | ⟨0, _⟩ => show win0_0.index t (0 : Fin 2) * 128 + 1 * p.val = t.val * 128 + p.val; omega
    | ⟨1, _⟩ => show win0_0.index t (1 : Fin 2) * 16384 + 1 * k = k; omega
  · rw [dif_neg hk, dif_neg hk]

/-- WHAT POINT `t` WRITES BACK is block `t` of the pooled array of the argument. -/
theorem flushed1_eq (c : Dev nD) (t : Fin cfg0.N) :
    (dats m 0 c).flushed 1 t = ((cfg0.win 1).blk t).view.read (Elt Ideal) (pooled (argArr m c)) := by
  rw [flushed1]
  obtain ⟨-, -, e2, e3⟩ := idx_facts t
  have ht : t.val < 32 := (N_0 : grid0.N = 32) ▸ t.isLt
  funext j
  obtain ⟨p, q, rfl⟩ : ∃ (p : Fin 128) (q : Fin 31), j = ix2 p q := ⟨j 0, j 1, eq_ix2 j⟩
  have hr : t.val * 128 + p.val < 4096 := by have := p.isLt; omega
  show out0_1 (iblk m c 0 t) (ix2 p q) = pooled (argArr m c) (((cfg0.win 1).blk t).view.emb (ix2 p q))
  have hemb : ((cfg0.win 1).blk t).view.emb (ix2 p q) = ix2 (⟨t.val * 128 + p.val, hr⟩ : Fin 4096) q := by
    funext a; apply Fin.ext
    match a with
    | ⟨0, _⟩ => show win0_1.index t (0 : Fin 2) * 128 + 1 * p.val = t.val * 128 + p.val; omega
    | ⟨1, _⟩ => show win0_1.index t (1 : Fin 2) * 31 + 1 * q.val = q.val; omega
  rw [hemb, pooled_ix2, block_value, row_iblk m c t p hr]

/-- An index of the result array is in point `t`'s block iff each coordinate is in the block's range on its axis. -/
theorem mem_blk1 (t : Fin cfg0.N) (i : S4096x31.Idx) :
    i ∈ ((cfg0.win 1).blk t).view.set ↔ ∀ a : Fin 2, win0_1.index t a * S128x31.size a ≤ (i a).val
      ∧ (i a).val < win0_1.index t a * S128x31.size a + S128x31.size a := by
  show i ∈ ((View.whole main_v0).slice (win0_1.rect t)).set ↔ _
  rw [View.set_slice_whole, Rect.mem_set_unit]
  exact Iff.rfl

/-- Every index of the result array is in some point's block: row `r` is in the block of point `r / 128`. -/
theorem cover (i : S4096x31.Idx) : ∃ t : Fin cfg0.N, (cfg0.win 1).flush t = true ∧ i ∈ ((cfg0.win 1).blk t).view.set := by
  have hi0 : (i 0).val < 4096 := (i 0).isLt
  have hi1 : (i 1).val < 31 := (i 1).isLt
  have hN : cfg0.N = 32 := N_0
  obtain ⟨-, -, e2, e3⟩ := idx_facts ⟨(i 0).val / 128, by rw [hN]; omega⟩
  refine ⟨⟨(i 0).val / 128, by rw [hN]; omega⟩, flush0_1 _, ?_⟩
  rw [mem_blk1]
  intro a
  match a with
  | ⟨0, _⟩ =>
    show win0_1.index ⟨(i 0).val / 128, _⟩ (0 : Fin 2) * 128 ≤ (i 0).val ∧ (i 0).val < win0_1.index ⟨(i 0).val / 128, _⟩ (0 : Fin 2) * 128 + 128
    rw [e2]; show (i 0).val / 128 * 128 ≤ (i 0).val ∧ (i 0).val < (i 0).val / 128 * 128 + 128; omega
  | ⟨1, _⟩ =>
    show win0_1.index ⟨(i 0).val / 128, _⟩ (1 : Fin 2) * 31 ≤ (i 1).val ∧ (i 1).val < win0_1.index ⟨(i 0).val / 128, _⟩ (1 : Fin 2) * 31 + 31
    rw [e3]; omega

/-- THE RESULT ARRAY after the run is the pooled array of the argument as the region finds it. -/
theorem final1 (c : Dev nD) : (dats m 0 c).arrAt 1 cfg0.N = pooled (argArr m c) :=
  (dats m 0 c).arrAt_eq_of_cover 1 (pooled (argArr m c)) (fun t _ => flushed1_eq m c t) (cover)

/-- The kernel's run, read: every weakly fair execution terminates with the result array at the pooled array of the argument's
    launch contents, the argument unchanged. -/
theorem run : θ_run defs (onTc (τ := τ) (main (F := Ideal))) ⟨m, fun _ => 0, ρ⟩ fun r => ∀ c : Dev nD,
      r.2.mem ((c : Thread nD τ).loc main_v0) = pooled (argArr m c)
      ∧ r.2.mem ((c : Thread nD τ).loc main_arg0) = m ((c : Thread nD τ).loc main_arg0) :=
  (θ_run defs _ _).mono (fun r h c => ⟨(h c).1.trans (final1 m c), (h c).2⟩) (run_blocks m ρ)

end Cert.KernelIdeal.Pooled

end
-- ==== Proof.LibHloLine.lean ====
/-
  What the buffers hold after a straight line of host operations may be computed by cutting the line in two: the
  contents after `l₁ ++ l₂` from `V` are the contents after `l₂` from the contents after `l₁` from `V`. (The contents after a
  line are a fold over its operations, each rewriting the buffers it writes; a fold over a list cut in two is the fold over
  the second part started from the fold over the first.)
-/
import Idealize.ShloMosaic.Lib.StableHlo.Run

noncomputable section

namespace Idealize.ShloMosaic.StableHlo

variable {τ : Topo} {sig : RefSig} {Val : EltTy → Type}

/-- The contents after a line of operations followed by another line are the second line's contents from the first
    line's: the fold over the operations, cut anywhere. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Idealize.ShloMosaic.StableHlo

end
-- ==== Proof.RefRun.lean ====
/-
  The reference's run. The reference is a straight line of 40 host operations on one argument array `x` of shape
  [4096, 16384]: for each of the five resolutions it slices the row's leading bins, regroups them as [4096, p - 1, w] and takes
  the maximum over the last axis, takes the maximum of the trailing bin separately, and sets the two side by side; its last
  operation joins the five resolutions' pieces — of 1, 2, 4, 8 and 16 columns — into the [4096, 31] result.

  What the result buffer holds after the line is computed in two cuts: the first 39 operations leave each of the five
  pieces in its own buffer, each a function of `x` alone (the stages `val_main_v1`, `val_main_v8`, `val_main_v15`,
  `val_main_v22`, `val_main_v29`); the join then reads those five buffers (the line cut before it: `after_append`). So every weakly fair execution
  of the reference terminates with its result at `val_main_v30 x`, the join of the five stages, and `x` unchanged.
-/
import proofs.«142918_g69295002353911_feedfinal_601_4_alg».proof.Proof.Gen.ReferenceIdeal
import Idealize.ShloMosaic.Lib.StableHlo.Run
import proofs.«142918_g69295002353911_feedfinal_601_4_alg».proof.Proof.LibHloLine
import proofs.«142918_g69295002353911_feedfinal_601_4_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- @main's 40 operations, in order. -/
abbrev ops : List (HloOp τ sig (Elt F)) :=
  [ nullary main_cst (constant S_ .f32 0xFF800000#32),
    binary main_arg0 main_cst main_v0 ((fun x v => Host.reduce FloatOps.maximumf x v reducesTo_S4096x16384_S4096_d1 h_S_) : (⟨S4096x16384, .f32⟩ : BufTy).Contents (Elt F) → (⟨S_, .f32⟩ : BufTy).Contents (Elt F) → (⟨S4096, .f32⟩ : BufTy).Contents (Elt F)),
    unary main_v0 main_v1 (broadcastInDim S4096x1 ![0] bcast_S4096_S4096x1_0 : (⟨S4096, .f32⟩ : BufTy).Contents (Elt F) → (⟨S4096x1, .f32⟩ : BufTy).Contents (Elt F)),
    unary main_arg0 main_v2 ((extractStridedSlice S4096x8192 ![0, 0] · slices_S4096x16384_S4096x8192_0_0) : (⟨S4096x16384, .f32⟩ : BufTy).Contents (Elt F) → (⟨S4096x8192, .f32⟩ : BufTy).Contents (Elt F)),
    reshape main_v2 main_v3 rfl shapeCasts_S4096x8192_S4096x1x8192,
    nullary main_cst_0 (constant S_ .f32 0xFF800000#32),
    binary main_v3 main_cst_0 main_v4 ((fun x v => Host.reduce FloatOps.maximumf x v reducesTo_S4096x1x8192_S4096x1_d2 h_S_) : (⟨S4096x1x8192, .f32⟩ : BufTy).Contents (Elt F) → (⟨S_, .f32⟩ : BufTy).Contents (Elt F) → (⟨S4096x1, .f32⟩ : BufTy).Contents (Elt F)),
    unary main_arg0 main_v5 ((extractStridedSlice S4096x8192 ![0, 8192] · slices_S4096x16384_S4096x8192_0_8192) : (⟨S4096x16384, .f32⟩ : BufTy).Contents (Elt F) → (⟨S4096x8192, .f32⟩ : BufTy).Contents (Elt F)),
    nullary main_cst_1 (constant S_ .f32 0xFF800000#32),
    binary main_v5 main_cst_1 main_v6 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v6 main_v7 (broadcastInDim S4096x1 ![0] bcast_S4096_S4096x1_0 : (⟨S4096, .f32⟩ : BufTy).Contents (Elt F) → (⟨S4096x1, .f32⟩ : BufTy).Contents (Elt F)),
    binary main_v4 main_v7 main_v8 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)),
    unary main_arg0 main_v9 ((extractStridedSlice S4096x12288 ![0, 0] · slices_S4096x16384_S4096x12288_0_0) : (⟨S4096x16384, .f32⟩ : BufTy).Contents (Elt F) → (⟨S4096x12288, .f32⟩ : BufTy).Contents (Elt F)),
    reshape main_v9 main_v10 rfl shapeCasts_S4096x12288_S4096x3x4096,
    nullary main_cst_2 (constant S_ .f32 0xFF800000#32),
    binary main_v10 main_cst_2 main_v11 ((fun x v => Host.reduce FloatOps.maximumf x v reducesTo_S4096x3x4096_S4096x3_d2 h_S_) : (⟨S4096x3x4096, .f32⟩ : BufTy).Contents (Elt F) → (⟨S_, .f32⟩ : BufTy).Contents (Elt F) → (⟨S4096x3, .f32⟩ : BufTy).Contents (Elt F)),
    unary main_arg0 main_v12 ((extractStridedSlice S4096x4096 ![0, 12288] · slices_S4096x16384_S4096x4096_0_12288) : (⟨S4096x16384, .f32⟩ : BufTy).Contents (Elt F) → (⟨S4096x4096, .f32⟩ : BufTy).Contents (Elt F)),
    nullary main_cst_3 (constant S_ .f32 0xFF800000#32),
    binary main_v12 main_cst_3 main_v13 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v13 main_v14 (broadcastInDim S4096x1 ![0] bcast_S4096_S4096x1_0 : (⟨S4096, .f32⟩ : BufTy).Contents (Elt F) → (⟨S4096x1, .f32⟩ : BufTy).Contents (Elt F)),
    binary main_v11 main_v14 main_v15 ((fun a b => concatenate S4096x4 1 [⟨S4096x3, a⟩, ⟨S4096x1, b⟩] concatenates_S4096x3_S4096x1_S4096x4_d1) : (⟨S4096x3, .f32⟩ : BufTy).Contents (Elt F) → (⟨S4096x1, .f32⟩ : BufTy).Contents (Elt F) → (⟨S4096x4, .f32⟩ : BufTy).Contents (Elt F)),
    unary main_arg0 main_v16 ((extractStridedSlice S4096x14336 ![0, 0] · slices_S4096x16384_S4096x14336_0_0) : (⟨S4096x16384, .f32⟩ : BufTy).Contents (Elt F) → (⟨S4096x14336, .f32⟩ : BufTy).Contents (Elt F)),
    reshape main_v16 main_v17 rfl shapeCasts_S4096x14336_S4096x7x2048,
    nullary main_cst_4 (constant S_ .f32 0xFF800000#32),
    binary main_v17 main_cst_4 main_v18 ((fun x v => Host.reduce FloatOps.maximumf x v reducesTo_S4096x7x2048_S4096x7_d2 h_S_) : (⟨S4096x7x2048, .f32⟩ : BufTy).Contents (Elt F) → (⟨S_, .f32⟩ : BufTy).Contents (Elt F) → (⟨S4096x7, .f32⟩ : BufTy).Contents (Elt F)),
    unary main_arg0 main_v19 ((extractStridedSlice S4096x2048 ![0, 14336] · slices_S4096x16384_S4096x2048_0_14336) : (⟨S4096x16384, .f32⟩ : BufTy).Contents (Elt F) → (⟨S4096x2048, .f32⟩ : BufTy).Contents (Elt F)),
    nullary main_cst_5 (constant S_ .f32 0xFF800000#32),
    binary main_v19 main_cst_5 main_v20 ((fun x v => Host.reduce FloatOps.maximumf x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    unary main_v20 main_v21 (broadcastInDim S4096x1 ![0] bcast_S4096_S4096x1_0 : (⟨S4096, .f32⟩ : BufTy).Contents (Elt F) → (⟨S4096x1, .f32⟩ : BufTy).Contents (Elt F)),
    binary main_v18 main_v21 main_v22 ((fun a b => concatenate S4096x8 1 [⟨S4096x7, a⟩, ⟨S4096x1, b⟩] concatenates_S4096x7_S4096x1_S4096x8_d1) : (⟨S4096x7, .f32⟩ : BufTy).Contents (Elt F) → (⟨S4096x1, .f32⟩ : BufTy).Contents (Elt F) → (⟨S4096x8, .f32⟩ : BufTy).Contents (Elt F)),
    unary main_arg0 main_v23 ((extractStridedSlice S4096x15360 ![0, 0] · slices_S4096x16384_S4096x15360_0_0) : (⟨S4096x16384, .f32⟩ : BufTy).Contents (Elt F) → (⟨S4096x15360, .f32⟩ : BufTy).Contents (Elt F)),
    reshape main_v23 main_v24 rfl shapeCasts_S4096x15360_S4096x15x1024,
    nullary main_cst_6 (constant S_ .f32 0xFF800000#32),
    binary main_v24 main_cst_6 main_v25 ((fun x v => Host.reduce FloatOps.maximumf x v reducesTo_S4096x15x1024_S4096x15_d2 h_S_) : (⟨S4096x15x1024, .f32⟩ : BufTy).Contents (Elt F) → (⟨S_, .f32⟩ : BufTy).Contents (Elt F) → (⟨S4096x15, .f32⟩ : BufTy).Contents (Elt F)),
    unary main_arg0 main_v26 ((extractStridedSlice S4096x1024 ![0, 15360] · slices_S4096x16384_S4096x1024_0_15360) : (⟨S4096x16384, .f32⟩ : BufTy).Contents (Elt F) → (⟨S4096x1024, .f32⟩ : BufTy).Contents (Elt F)),
    nullary main_cst_7 (constant S_ .f32 0xFF800000#32),
    binary main_v26 main_cst_7 main_v27 ((fun x v => Host.reduce FloatOps.maximumf x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    binary main_v25 main_v28 main_v29 ((fun a b => concatenate S4096x16 1 [⟨S4096x15, a⟩, ⟨S4096x1, b⟩] concatenates_S4096x15_S4096x1_S4096x16_d1) : (⟨S4096x15, .f32⟩ : BufTy).Contents (Elt F) → (⟨S4096x1, .f32⟩ : BufTy).Contents (Elt F) → (⟨S4096x16, .f32⟩ : BufTy).Contents (Elt F)),
    nary ![main_v1, main_v8, main_v15, main_v22, main_v29] main_v30 (fun u => concatenate S4096x31 1 [⟨S4096x1, u 0⟩, ⟨S4096x2, u 1⟩, ⟨S4096x4, u 2⟩, ⟨S4096x8, u 3⟩, ⟨S4096x16, u 4⟩] concatenates_S4096x1_S4096x2_S4096x4_S4096x8_S4096x16_S4096x31_d1) ]

/-- The first 39 of them: each resolution's piece written to its own buffer. -/
abbrev pre : List (HloOp τ sig (Elt F)) :=
  [ nullary main_cst (constant S_ .f32 0xFF800000#32),
    binary main_arg0 main_cst main_v0 ((fun x v => Host.reduce FloatOps.maximumf x v reducesTo_S4096x16384_S4096_d1 h_S_) : (⟨S4096x16384, .f32⟩ : BufTy).Contents (Elt F) → (⟨S_, .f32⟩ : BufTy).Contents (Elt F) → (⟨S4096, .f32⟩ : BufTy).Contents (Elt F)),
    unary main_v0 main_v1 (broadcastInDim S4096x1 ![0] bcast_S4096_S4096x1_0 : (⟨S4096, .f32⟩ : BufTy).Contents (Elt F) → (⟨S4096x1, .f32⟩ : BufTy).Contents (Elt F)),
    unary main_arg0 main_v2 ((extractStridedSlice S4096x8192 ![0, 0] · slices_S4096x16384_S4096x8192_0_0) : (⟨S4096x16384, .f32⟩ : BufTy).Contents (Elt F) → (⟨S4096x8192, .f32⟩ : BufTy).Contents (Elt F)),
    reshape main_v2 main_v3 rfl shapeCasts_S4096x8192_S4096x1x8192,
    nullary main_cst_0 (constant S_ .f32 0xFF800000#32),
    binary main_v3 main_cst_0 main_v4 ((fun x v => Host.reduce FloatOps.maximumf x v reducesTo_S4096x1x8192_S4096x1_d2 h_S_) : (⟨S4096x1x8192, .f32⟩ : BufTy).Contents (Elt F) → (⟨S_, .f32⟩ : BufTy).Contents (Elt F) → (⟨S4096x1, .f32⟩ : BufTy).Contents (Elt F)),
    unary main_arg0 main_v5 ((extractStridedSlice S4096x8192 ![0, 8192] · slices_S4096x16384_S4096x8192_0_8192) : (⟨S4096x16384, .f32⟩ : BufTy).Contents (Elt F) → (⟨S4096x8192, .f32⟩ : BufTy).Contents (Elt F)),
    nullary main_cst_1 (constant S_ .f32 0xFF800000#32),
    binary main_v5 main_cst_1 main_v6 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v6 main_v7 (broadcastInDim S4096x1 ![0] bcast_S4096_S4096x1_0 : (⟨S4096, .f32⟩ : BufTy).Contents (Elt F) → (⟨S4096x1, .f32⟩ : BufTy).Contents (Elt F)),
    binary main_v4 main_v7 main_v8 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)),
    unary main_arg0 main_v9 ((extractStridedSlice S4096x12288 ![0, 0] · slices_S4096x16384_S4096x12288_0_0) : (⟨S4096x16384, .f32⟩ : BufTy).Contents (Elt F) → (⟨S4096x12288, .f32⟩ : BufTy).Contents (Elt F)),
    reshape main_v9 main_v10 rfl shapeCasts_S4096x12288_S4096x3x4096,
    nullary main_cst_2 (constant S_ .f32 0xFF800000#32),
    binary main_v10 main_cst_2 main_v11 ((fun x v => Host.reduce FloatOps.maximumf x v reducesTo_S4096x3x4096_S4096x3_d2 h_S_) : (⟨S4096x3x4096, .f32⟩ : BufTy).Contents (Elt F) → (⟨S_, .f32⟩ : BufTy).Contents (Elt F) → (⟨S4096x3, .f32⟩ : BufTy).Contents (Elt F)),
    unary main_arg0 main_v12 ((extractStridedSlice S4096x4096 ![0, 12288] · slices_S4096x16384_S4096x4096_0_12288) : (⟨S4096x16384, .f32⟩ : BufTy).Contents (Elt F) → (⟨S4096x4096, .f32⟩ : BufTy).Contents (Elt F)),
    nullary main_cst_3 (constant S_ .f32 0xFF800000#32),
    binary main_v12 main_cst_3 main_v13 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v13 main_v14 (broadcastInDim S4096x1 ![0] bcast_S4096_S4096x1_0 : (⟨S4096, .f32⟩ : BufTy).Contents (Elt F) → (⟨S4096x1, .f32⟩ : BufTy).Contents (Elt F)),
    binary main_v11 main_v14 main_v15 ((fun a b => concatenate S4096x4 1 [⟨S4096x3, a⟩, ⟨S4096x1, b⟩] concatenates_S4096x3_S4096x1_S4096x4_d1) : (⟨S4096x3, .f32⟩ : BufTy).Contents (Elt F) → (⟨S4096x1, .f32⟩ : BufTy).Contents (Elt F) → (⟨S4096x4, .f32⟩ : BufTy).Contents (Elt F)),
    unary main_arg0 main_v16 ((extractStridedSlice S4096x14336 ![0, 0] · slices_S4096x16384_S4096x14336_0_0) : (⟨S4096x16384, .f32⟩ : BufTy).Contents (Elt F) → (⟨S4096x14336, .f32⟩ : BufTy).Contents (Elt F)),
    reshape main_v16 main_v17 rfl shapeCasts_S4096x14336_S4096x7x2048,
    nullary main_cst_4 (constant S_ .f32 0xFF800000#32),
    binary main_v17 main_cst_4 main_v18 ((fun x v => Host.reduce FloatOps.maximumf x v reducesTo_S4096x7x2048_S4096x7_d2 h_S_) : (⟨S4096x7x2048, .f32⟩ : BufTy).Contents (Elt F) → (⟨S_, .f32⟩ : BufTy).Contents (Elt F) → (⟨S4096x7, .f32⟩ : BufTy).Contents (Elt F)),
    unary main_arg0 main_v19 ((extractStridedSlice S4096x2048 ![0, 14336] · slices_S4096x16384_S4096x2048_0_14336) : (⟨S4096x16384, .f32⟩ : BufTy).Contents (Elt F) → (⟨S4096x2048, .f32⟩ : BufTy).Contents (Elt F)),
    nullary main_cst_5 (constant S_ .f32 0xFF800000#32),
    binary main_v19 main_cst_5 main_v20 ((fun x v => Host.reduce FloatOps.maximumf x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    unary main_v20 main_v21 (broadcastInDim S4096x1 ![0] bcast_S4096_S4096x1_0 : (⟨S4096, .f32⟩ : BufTy).Contents (Elt F) → (⟨S4096x1, .f32⟩ : BufTy).Contents (Elt F)),
    binary main_v18 main_v21 main_v22 ((fun a b => concatenate S4096x8 1 [⟨S4096x7, a⟩, ⟨S4096x1, b⟩] concatenates_S4096x7_S4096x1_S4096x8_d1) : (⟨S4096x7, .f32⟩ : BufTy).Contents (Elt F) → (⟨S4096x1, .f32⟩ : BufTy).Contents (Elt F) → (⟨S4096x8, .f32⟩ : BufTy).Contents (Elt F)),
    unary main_arg0 main_v23 ((extractStridedSlice S4096x15360 ![0, 0] · slices_S4096x16384_S4096x15360_0_0) : (⟨S4096x16384, .f32⟩ : BufTy).Contents (Elt F) → (⟨S4096x15360, .f32⟩ : BufTy).Contents (Elt F)),
    reshape main_v23 main_v24 rfl shapeCasts_S4096x15360_S4096x15x1024,
    nullary main_cst_6 (constant S_ .f32 0xFF800000#32),
    binary main_v24 main_cst_6 main_v25 ((fun x v => Host.reduce FloatOps.maximumf x v reducesTo_S4096x15x1024_S4096x15_d2 h_S_) : (⟨S4096x15x1024, .f32⟩ : BufTy).Contents (Elt F) → (⟨S_, .f32⟩ : BufTy).Contents (Elt F) → (⟨S4096x15, .f32⟩ : BufTy).Contents (Elt F)),
    unary main_arg0 main_v26 ((extractStridedSlice S4096x1024 ![0, 15360] · slices_S4096x16384_S4096x1024_0_15360) : (⟨S4096x16384, .f32⟩ : BufTy).Contents (Elt F) → (⟨S4096x1024, .f32⟩ : BufTy).Contents (Elt F)),
    nullary main_cst_7 (constant S_ .f32 0xFF800000#32),
    binary main_v26 main_cst_7 main_v27 ((fun x v => Host.reduce FloatOps.maximumf x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    binary main_v25 main_v28 main_v29 ((fun a b => concatenate S4096x16 1 [⟨S4096x15, a⟩, ⟨S4096x1, b⟩] concatenates_S4096x15_S4096x1_S4096x16_d1) : (⟨S4096x15, .f32⟩ : BufTy).Contents (Elt F) → (⟨S4096x1, .f32⟩ : BufTy).Contents (Elt F) → (⟨S4096x16, .f32⟩ : BufTy).Contents (Elt F)) ]

/-- The last one: the five pieces joined along the columns. -/
abbrev join : HloOp τ sig (Elt F) :=
  nary ![main_v1, main_v8, main_v15, main_v22, main_v29] main_v30 (fun u => concatenate S4096x31 1 [⟨S4096x1, u 0⟩, ⟨S4096x2, u 1⟩, ⟨S4096x4, u 2⟩, ⟨S4096x8, u 3⟩, ⟨S4096x16, u 4⟩] concatenates_S4096x1_S4096x2_S4096x4_S4096x8_S4096x16_S4096x31_d1)

theorem ops_eq : (ops : List (HloOp τ sig (Elt F))) = pre ++ [join] := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., unary_bufs_sub .., unary_bufs_sub .., reshape_bufs_sub .., nullary_bufs_sub .., binary_bufs_sub .., unary_bufs_sub .., nullary_bufs_sub .., binary_bufs_sub .., unary_bufs_sub .., binary_bufs_sub .., unary_bufs_sub .., reshape_bufs_sub .., nullary_bufs_sub .., binary_bufs_sub .., unary_bufs_sub .., nullary_bufs_sub .., binary_bufs_sub .., unary_bufs_sub .., binary_bufs_sub .., unary_bufs_sub .., reshape_bufs_sub .., nullary_bufs_sub .., binary_bufs_sub .., unary_bufs_sub .., nullary_bufs_sub .., binary_bufs_sub .., unary_bufs_sub .., binary_bufs_sub .., unary_bufs_sub .., reshape_bufs_sub .., nullary_bufs_sub .., binary_bufs_sub .., unary_bufs_sub .., nullary_bufs_sub .., binary_bufs_sub .., unary_bufs_sub .., binary_bufs_sub .., nary_bufs_sub ..⟩

/-! ## The five pieces after the first 39 operations -/

section Pieces

variable (V : Valuation τ sig (Elt F))

set_option maxRecDepth 8192 in
/-- The whole row's maximum, as a column. -/
theorem pre_v1 : after pre V (Proc.devRef .tc main_v1) = val_main_v1 (F := F) (V (Proc.devRef .tc main_arg0)) := by
  after_results_simp <;> rfl

set_option maxRecDepth 8192 in
/-- The two halves' maxima. -/
theorem pre_v8 : after pre V (Proc.devRef .tc main_v8) = val_main_v8 (F := F) (V (Proc.devRef .tc main_arg0)) := by
  after_results <;> rfl

set_option maxRecDepth 8192 in
/-- The four quarters' maxima. -/
theorem pre_v15 : after pre V (Proc.devRef .tc main_v15) = val_main_v15 (F := F) (V (Proc.devRef .tc main_arg0)) := by
  after_results <;> rfl

set_option maxRecDepth 8192 in
/-- The eight eighths' maxima. -/
theorem pre_v22 : after pre V (Proc.devRef .tc main_v22) = val_main_v22 (F := F) (V (Proc.devRef .tc main_arg0)) := by
  after_results <;> rfl

set_option maxRecDepth 8192 in
/-- The sixteen sixteenths' maxima. -/
theorem pre_v29 : after pre V (Proc.devRef .tc main_v29) = val_main_v29 (F := F) (V (Proc.devRef .tc main_arg0)) := by
  after_results <;> rfl

end Pieces

/-! ## The result, and the run -/

set_option maxRecDepth 8192 in
/-- After the whole line the result buffer holds the join of the five pieces: the last stage, `val_main_v30`. -/
theorem after_ops_v30 (V : Valuation τ sig (Elt F)) :
    after ops V (Proc.devRef .tc main_v30) = val_main_v30 (F := F) (V (Proc.devRef .tc main_arg0)) := by
  rw [ops_eq, after_append, after_cons, after_nil, nary_result]
  show concatenate S4096x31 1 [⟨S4096x1, after pre V (Proc.devRef .tc main_v1)⟩, ⟨S4096x2, after pre V (Proc.devRef .tc main_v8)⟩,
      ⟨S4096x4, after pre V (Proc.devRef .tc main_v15)⟩, ⟨S4096x8, after pre V (Proc.devRef .tc main_v22)⟩,
      ⟨S4096x16, after pre V (Proc.devRef .tc main_v29)⟩] concatenates_S4096x1_S4096x2_S4096x4_S4096x8_S4096x16_S4096x31_d1 = _
  rw [pre_v1, pre_v8, pre_v15, pre_v22, pre_v29]
  rfl

set_option maxRecDepth 8192 in
/-- No operation of the line writes the argument. -/
theorem after_ops_arg0 (V : Valuation τ sig (Elt F)) :
    after ops V (Proc.devRef .tc main_arg0) = V (Proc.devRef .tc main_arg0) := by
  after_results_simp <;> rfl

/-- On every device, for any float values, from any memory with zero counters: every weakly fair execution of the
    reference terminates with its result at the last stage of the argument's launch contents, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = val_main_v30 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v30).trans (after_ops_v30 _), (h c main_arg0).trans (after_ops_arg0 _)⟩)
    (run_seq scopedRefs_eq scopedSems_eq defs main (fun _ => ops) main_eq (fun _ => ops_sub) m ρ)

end Cert.ReferenceIdeal.RefRun

end
-- ==== Proof.RefValue.lean ====
/-
  The reference's result, index by index. Its last stage joins five pieces along the columns, of 1, 2, 4, 8 and 16 columns:
  piece `p` lists the maxima of the row's `p` equal bins of `w = 16384 / p` entries. Each piece is computed in two parts: the
  first `p - 1` bins by slicing the row's first `(p - 1) · w` entries, regrouping them as [4096, p - 1, w] and taking the maximum
  over the last axis; the last bin by slicing the row's last `w` entries and taking the maximum over them; the two parts set
  side by side. (For `p = 1` there is only the last bin: the whole row.)

  Entry (r, i, k) of the regrouped slice is entry `i · w + k` of row `r` — the regrouping keeps the row-major position —, and
  entry (r, k) of the trailing slice is entry `(p - 1) · w + k` of row `r`; every maximum starts from −∞, the bottom element.
  So column `j` of piece `p` is the supremum of row `r` over the `w` positions from `j · w`, and column `j` of the result — which
  falls in the piece whose columns start at 0, 1, 3, 7 or 15 — is the supremum over column `j`'s bin: the result is `pooled x`.
-/
import proofs.«142918_g69295002353911_feedfinal_601_4_alg».proof.Proof.RefReadP
import proofs.«142918_g69295002353911_feedfinal_601_4_alg».proof.Proof.Pool
import proofs.«142918_g69295002353911_feedfinal_601_4_alg».proof.Proof.LibHostMax

noncomputable section

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx SegSup Cert.Pool HostMax

variable (x : (⟨S4096x16384, .f32⟩ : BufTy).Contents (Elt Ideal))

/-! ### The whole row -/

/-- The maximum over the whole row. -/
theorem v0_at (r : Fin 4096) : val_main_v0 (F := Ideal) x (ix1 r) = segSup (rowOf x r) 0 16384 := by
  unfold val_main_v0
  refine (reduce_rows x _ (fun _ => ofBits_neg_inf) reducesTo_S4096x16384_S4096_d1 (by decide) h_S_ r).trans ?_
  refine sup_row_segment x r 0 16384 (by omega) _ (fun k => ?_)
  refine congrArg x (funext fun a => Fin.ext ?_)
  match a with
  | ⟨0, _⟩ => rfl
  | ⟨1, _⟩ => show k.val = 0 + k.val; omega

/-- The whole row's maximum as a column. -/
theorem v1_at (r : Fin 4096) (j : Fin 1) : val_main_v1 (F := Ideal) x (ix2 r j) = segSup (rowOf x r) 0 16384 := by
  rw [val_main_v1_apply]
  have e : idx_main_v1 (ix2 r j) = ix1 r := funext fun a => by match a with | ⟨0, _⟩ => rfl
  rw [e]; exact v0_at x r

/-! ### The two halves -/

/-- The leading half: group `i` of the regrouped slice is the row's bin of 8192 positions from `i * 8192`. -/
theorem v4_at (r : Fin 4096) (i : Fin 1) :
    val_main_v4 (F := Ideal) x (ix2 r i) = segSup (rowOf x r) (i.val * 8192) 8192 := by
  unfold val_main_v4
  refine (reduce_groups (val_main_v3 (F := Ideal) x) _ (fun _ => ofBits_neg_inf) reducesTo_S4096x1x8192_S4096x1_d2 (by decide) h_S_ r i).trans ?_
  refine sup_row_segment x r (i.val * 8192) 8192 (by have := i.isLt; omega) _ (fun k => ?_)
  show val_main_v3 (F := Ideal) x (ix3 r i k) = _
  rw [val_main_v3_apply, val_main_v2_apply]
  refine congrArg x (funext fun a => Fin.ext ?_)
  have hi := i.isLt; have hk := k.isLt; have hr := r.isLt
  match a with
  | ⟨0, _⟩ => show ((r.val * 1 + i.val) * 8192 + k.val) / 8192 = r.val; omega
  | ⟨1, _⟩ => show ((r.val * 1 + i.val) * 8192 + k.val) % 8192 = i.val * 8192 + k.val; omega

/-- The trailing half: the row's last 8192 positions, from 8192. -/
theorem v6_at (r : Fin 4096) : val_main_v6 (F := Ideal) x (ix1 r) = segSup (rowOf x r) 8192 8192 := by
  unfold val_main_v6
  refine (reduce_rows (val_main_v5 (F := Ideal) x) _ (fun _ => ofBits_neg_inf) reducesTo_S4096x8192_S4096_d1 (by decide) h_S_ r).trans ?_
  refine sup_row_segment x r 8192 8192 (by omega) _ (fun k => ?_)
  show val_main_v5 (F := Ideal) x (ix2 r k) = _
  rw [val_main_v5_apply]
  refine congrArg x (funext fun a => Fin.ext ?_)
  match a with
  | ⟨0, _⟩ => rfl
  | ⟨1, _⟩ => rfl

/-- The trailing half's maximum as a column. -/
theorem v7_at (r : Fin 4096) (j : Fin 1) : val_main_v7 (F := Ideal) x (ix2 r j) = segSup (rowOf x r) 8192 8192 := by
  rw [val_main_v7_apply]
  have e : idx_main_v7 (ix2 r j) = ix1 r := funext fun a => by match a with | ⟨0, _⟩ => rfl
  rw [e]; exact v6_at x r

/-- The two halves side by side: column `j` is the row's bin of 8192 positions from `j * 8192`. -/
theorem v8_at (r : Fin 4096) (j : Fin 2) :
    val_main_v8 (F := Ideal) x (ix2 r j) = segSup (rowOf x r) (j.val * 8192) 8192 := by
  unfold val_main_v8
  refine (join_cols (q := 1) (val_main_v4 (F := Ideal) x) (val_main_v7 (F := Ideal) x) concatenates_S4096x1_S4096x1_S4096x2_d1 r j).trans ?_
  split
  · rename_i hj; exact v4_at x r ⟨j.val, hj⟩
  · rename_i hj
    have hq : j.val = 1 := by have := j.isLt; omega
    rw [v7_at, hq]

/-! ### The four quarters -/

/-- The leading quarters: group `i` of the regrouped slice is the row's bin of 4096 positions from `i * 4096`. -/
theorem v11_at (r : Fin 4096) (i : Fin 3) :
    val_main_v11 (F := Ideal) x (ix2 r i) = segSup (rowOf x r) (i.val * 4096) 4096 := by
  unfold val_main_v11
  refine (reduce_groups (val_main_v10 (F := Ideal) x) _ (fun _ => ofBits_neg_inf) reducesTo_S4096x3x4096_S4096x3_d2 (by decide) h_S_ r i).trans ?_
  refine sup_row_segment x r (i.val * 4096) 4096 (by have := i.isLt; omega) _ (fun k => ?_)
  show val_main_v10 (F := Ideal) x (ix3 r i k) = _
  rw [val_main_v10_apply, val_main_v9_apply]
  refine congrArg x (funext fun a => Fin.ext ?_)
  have hi := i.isLt; have hk := k.isLt; have hr := r.isLt
  match a with
  | ⟨0, _⟩ => show ((r.val * 3 + i.val) * 4096 + k.val) / 12288 = r.val; omega
  | ⟨1, _⟩ => show ((r.val * 3 + i.val) * 4096 + k.val) % 12288 = i.val * 4096 + k.val; omega

/-- The trailing quarter: the row's last 4096 positions, from 12288. -/
theorem v13_at (r : Fin 4096) : val_main_v13 (F := Ideal) x (ix1 r) = segSup (rowOf x r) 12288 4096 := by
  unfold val_main_v13
  refine (reduce_rows (val_main_v12 (F := Ideal) x) _ (fun _ => ofBits_neg_inf) reducesTo_S4096x4096_S4096_d1 (by decide) h_S_ r).trans ?_
  refine sup_row_segment x r 12288 4096 (by omega) _ (fun k => ?_)
  show val_main_v12 (F := Ideal) x (ix2 r k) = _
  rw [val_main_v12_apply]
  refine congrArg x (funext fun a => Fin.ext ?_)
  match a with
  | ⟨0, _⟩ => rfl
  | ⟨1, _⟩ => rfl

/-- The trailing quarter's maximum as a column. -/
theorem v14_at (r : Fin 4096) (j : Fin 1) : val_main_v14 (F := Ideal) x (ix2 r j) = segSup (rowOf x r) 12288 4096 := by
  rw [val_main_v14_apply]
  have e : idx_main_v14 (ix2 r j) = ix1 r := funext fun a => by match a with | ⟨0, _⟩ => rfl
  rw [e]; exact v13_at x r

/-- The four quarters side by side: column `j` is the row's bin of 4096 positions from `j * 4096`. -/
theorem v15_at (r : Fin 4096) (j : Fin 4) :
    val_main_v15 (F := Ideal) x (ix2 r j) = segSup (rowOf x r) (j.val * 4096) 4096 := by
  unfold val_main_v15
  refine (join_cols (q := 3) (val_main_v11 (F := Ideal) x) (val_main_v14 (F := Ideal) x) concatenates_S4096x3_S4096x1_S4096x4_d1 r j).trans ?_
  split
  · rename_i hj; exact v11_at x r ⟨j.val, hj⟩
  · rename_i hj
    have hq : j.val = 3 := by have := j.isLt; omega
    rw [v14_at, hq]

/-! ### The eight eighths -/

/-- The leading eighths: group `i` of the regrouped slice is the row's bin of 2048 positions from `i * 2048`. -/
theorem v18_at (r : Fin 4096) (i : Fin 7) :
    val_main_v18 (F := Ideal) x (ix2 r i) = segSup (rowOf x r) (i.val * 2048) 2048 := by
  unfold val_main_v18
  refine (reduce_groups (val_main_v17 (F := Ideal) x) _ (fun _ => ofBits_neg_inf) reducesTo_S4096x7x2048_S4096x7_d2 (by decide) h_S_ r i).trans ?_
  refine sup_row_segment x r (i.val * 2048) 2048 (by have := i.isLt; omega) _ (fun k => ?_)
  show val_main_v17 (F := Ideal) x (ix3 r i k) = _
  rw [val_main_v17_apply, val_main_v16_apply]
  refine congrArg x (funext fun a => Fin.ext ?_)
  have hi := i.isLt; have hk := k.isLt; have hr := r.isLt
  match a with
  | ⟨0, _⟩ => show ((r.val * 7 + i.val) * 2048 + k.val) / 14336 = r.val; omega
  | ⟨1, _⟩ => show ((r.val * 7 + i.val) * 2048 + k.val) % 14336 = i.val * 2048 + k.val; omega

/-- The trailing eighth: the row's last 2048 positions, from 14336. -/
theorem v20_at (r : Fin 4096) : val_main_v20 (F := Ideal) x (ix1 r) = segSup (rowOf x r) 14336 2048 := by
  unfold val_main_v20
  refine (reduce_rows (val_main_v19 (F := Ideal) x) _ (fun _ => ofBits_neg_inf) reducesTo_S4096x2048_S4096_d1 (by decide) h_S_ r).trans ?_
  refine sup_row_segment x r 14336 2048 (by omega) _ (fun k => ?_)
  show val_main_v19 (F := Ideal) x (ix2 r k) = _
  rw [val_main_v19_apply]
  refine congrArg x (funext fun a => Fin.ext ?_)
  match a with
  | ⟨0, _⟩ => rfl
  | ⟨1, _⟩ => rfl

/-- The trailing eighth's maximum as a column. -/
theorem v21_at (r : Fin 4096) (j : Fin 1) : val_main_v21 (F := Ideal) x (ix2 r j) = segSup (rowOf x r) 14336 2048 := by
  rw [val_main_v21_apply]
  have e : idx_main_v21 (ix2 r j) = ix1 r := funext fun a => by match a with | ⟨0, _⟩ => rfl
  rw [e]; exact v20_at x r

/-- The eight eighths side by side: column `j` is the row's bin of 2048 positions from `j * 2048`. -/
theorem v22_at (r : Fin 4096) (j : Fin 8) :
    val_main_v22 (F := Ideal) x (ix2 r j) = segSup (rowOf x r) (j.val * 2048) 2048 := by
  unfold val_main_v22
  refine (join_cols (q := 7) (val_main_v18 (F := Ideal) x) (val_main_v21 (F := Ideal) x) concatenates_S4096x7_S4096x1_S4096x8_d1 r j).trans ?_
  split
  · rename_i hj; exact v18_at x r ⟨j.val, hj⟩
  · rename_i hj
    have hq : j.val = 7 := by have := j.isLt; omega
    rw [v21_at, hq]

/-! ### The sixteen sixteenths -/

/-- The leading sixteenths: group `i` of the regrouped slice is the row's bin of 1024 positions from `i * 1024`. -/
theorem v25_at (r : Fin 4096) (i : Fin 15) :
    val_main_v25 (F := Ideal) x (ix2 r i) = segSup (rowOf x r) (i.val * 1024) 1024 := by
  unfold val_main_v25
  refine (reduce_groups (val_main_v24 (F := Ideal) x) _ (fun _ => ofBits_neg_inf) reducesTo_S4096x15x1024_S4096x15_d2 (by decide) h_S_ r i).trans ?_
  refine sup_row_segment x r (i.val * 1024) 1024 (by have := i.isLt; omega) _ (fun k => ?_)
  show val_main_v24 (F := Ideal) x (ix3 r i k) = _
  rw [val_main_v24_apply, val_main_v23_apply]
  refine congrArg x (funext fun a => Fin.ext ?_)
  have hi := i.isLt; have hk := k.isLt; have hr := r.isLt
  match a with
  | ⟨0, _⟩ => show ((r.val * 15 + i.val) * 1024 + k.val) / 15360 = r.val; omega
  | ⟨1, _⟩ => show ((r.val * 15 + i.val) * 1024 + k.val) % 15360 = i.val * 1024 + k.val; omega

/-- The trailing sixteenth: the row's last 1024 positions, from 15360. -/
theorem v27_at (r : Fin 4096) : val_main_v27 (F := Ideal) x (ix1 r) = segSup (rowOf x r) 15360 1024 := by
  unfold val_main_v27
  refine (reduce_rows (val_main_v26 (F := Ideal) x) _ (fun _ => ofBits_neg_inf) reducesTo_S4096x1024_S4096_d1 (by decide) h_S_ r).trans ?_
  refine sup_row_segment x r 15360 1024 (by omega) _ (fun k => ?_)
  show val_main_v26 (F := Ideal) x (ix2 r k) = _
  rw [val_main_v26_apply]
  refine congrArg x (funext fun a => Fin.ext ?_)
  match a with
  | ⟨0, _⟩ => rfl
  | ⟨1, _⟩ => rfl

/-- The trailing sixteenth's maximum as a column. -/
theorem v28_at (r : Fin 4096) (j : Fin 1) : val_main_v28 (F := Ideal) x (ix2 r j) = segSup (rowOf x r) 15360 1024 := by
  rw [val_main_v28_apply]
  have e : idx_main_v28 (ix2 r j) = ix1 r := funext fun a => by match a with | ⟨0, _⟩ => rfl
  rw [e]; exact v27_at x r

/-- The sixteen sixteenths side by side: column `j` is the row's bin of 1024 positions from `j * 1024`. -/
theorem v29_at (r : Fin 4096) (j : Fin 16) :
    val_main_v29 (F := Ideal) x (ix2 r j) = segSup (rowOf x r) (j.val * 1024) 1024 := by
  unfold val_main_v29
  refine (join_cols (q := 15) (val_main_v25 (F := Ideal) x) (val_main_v28 (F := Ideal) x) concatenates_S4096x15_S4096x1_S4096x16_d1 r j).trans ?_
  split
  · rename_i hj; exact v25_at x r ⟨j.val, hj⟩
  · rename_i hj
    have hq : j.val = 15 := by have := j.isLt; omega
    rw [v28_at, hq]

/-! ### The result: the five pieces side by side -/

/-- The five pieces, in column order. -/
abbrev stages : List ((s : Shape) × (s.Idx → Elt Ideal .f32)) :=
  [⟨S4096x1, val_main_v1 (F := Ideal) x⟩, ⟨S4096x2, val_main_v8 (F := Ideal) x⟩, ⟨S4096x4, val_main_v15 (F := Ideal) x⟩,
    ⟨S4096x8, val_main_v22 (F := Ideal) x⟩, ⟨S4096x16, val_main_v29 (F := Ideal) x⟩]

/-- Column `j` of the result is the supremum of row `r` over column `j`'s bin: the result is the pooled array. The pieces'
    columns start at 0, 1, 3, 7 and 15; column `j` is column `j` less that start of the piece it falls in. -/
theorem v30_at (r : Fin 4096) (j : Fin 31) : val_main_v30 (F := Ideal) x (ix2 r j) = pooled x (ix2 r j) := by
  rw [pooled_ix2]
  unfold val_main_v30
  have hj := j.isLt
  by_cases h1 : j.val < 1
  · obtain ⟨hs, hw⟩ := bin_whole h1
    rw [hs, hw]
    refine (concatenate_apply_piece (t := S4096x31) (1 : Fin 2) (stages x)
      (show Shape.Concatenates ((stages x).map (·.1)) S4096x31 (1 : Fin 2) from concatenates_S4096x1_S4096x2_S4096x4_S4096x8_S4096x16_S4096x31_d1) (ix2 r j)
      0 (by show (0 : ℕ) < 5; omega) S4096x1 (val_main_v1 (F := Ideal) x) rfl rfl 0 rfl (ix2 r (⟨j.val - 0, by omega⟩ : Fin 1)) (fun b hb => ?_) ?_).trans
      (v1_at x r _)
    · fin_cases b
      · rfl
      · exact absurd rfl hb
    · show 0 + (j.val - 0) = j.val; omega
  by_cases h3 : j.val < 3
  · obtain ⟨hs, hw⟩ := bin_halves (Nat.le_of_not_lt h1) h3
    rw [hs, hw]
    refine (concatenate_apply_piece (t := S4096x31) (1 : Fin 2) (stages x)
      (show Shape.Concatenates ((stages x).map (·.1)) S4096x31 (1 : Fin 2) from concatenates_S4096x1_S4096x2_S4096x4_S4096x8_S4096x16_S4096x31_d1) (ix2 r j)
      1 (by show (1 : ℕ) < 5; omega) S4096x2 (val_main_v8 (F := Ideal) x) rfl rfl 1 rfl (ix2 r (⟨j.val - 1, by omega⟩ : Fin 2)) (fun b hb => ?_) ?_).trans
      (v8_at x r _)
    · fin_cases b
      · rfl
      · exact absurd rfl hb
    · show 1 + (j.val - 1) = j.val; omega
  by_cases h7 : j.val < 7
  · obtain ⟨hs, hw⟩ := bin_quarters (Nat.le_of_not_lt h3) h7
    rw [hs, hw]
    refine (concatenate_apply_piece (t := S4096x31) (1 : Fin 2) (stages x)
      (show Shape.Concatenates ((stages x).map (·.1)) S4096x31 (1 : Fin 2) from concatenates_S4096x1_S4096x2_S4096x4_S4096x8_S4096x16_S4096x31_d1) (ix2 r j)
      2 (by show (2 : ℕ) < 5; omega) S4096x4 (val_main_v15 (F := Ideal) x) rfl rfl 3 rfl (ix2 r (⟨j.val - 3, by omega⟩ : Fin 4)) (fun b hb => ?_) ?_).trans
      (v15_at x r _)
    · fin_cases b
      · rfl
      · exact absurd rfl hb
    · show 3 + (j.val - 3) = j.val; omega
  by_cases h15 : j.val < 15
  · obtain ⟨hs, hw⟩ := bin_eighths (Nat.le_of_not_lt h7) h15
    rw [hs, hw]
    refine (concatenate_apply_piece (t := S4096x31) (1 : Fin 2) (stages x)
      (show Shape.Concatenates ((stages x).map (·.1)) S4096x31 (1 : Fin 2) from concatenates_S4096x1_S4096x2_S4096x4_S4096x8_S4096x16_S4096x31_d1) (ix2 r j)
      3 (by show (3 : ℕ) < 5; omega) S4096x8 (val_main_v22 (F := Ideal) x) rfl rfl 7 rfl (ix2 r (⟨j.val - 7, by omega⟩ : Fin 8)) (fun b hb => ?_) ?_).trans
      (v22_at x r _)
    · fin_cases b
      · rfl
      · exact absurd rfl hb
    · show 7 + (j.val - 7) = j.val; omega
  · obtain ⟨hs, hw⟩ := bin_sixteenths (Nat.le_of_not_lt h15)
    rw [hs, hw]
    refine (concatenate_apply_piece (t := S4096x31) (1 : Fin 2) (stages x)
      (show Shape.Concatenates ((stages x).map (·.1)) S4096x31 (1 : Fin 2) from concatenates_S4096x1_S4096x2_S4096x4_S4096x8_S4096x16_S4096x31_d1) (ix2 r j)
      4 (by show (4 : ℕ) < 5; omega) S4096x16 (val_main_v29 (F := Ideal) x) rfl rfl 15 rfl (ix2 r (⟨j.val - 15, by omega⟩ : Fin 16)) (fun b hb => ?_) ?_).trans
      (v29_at x r _)
    · fin_cases b
      · rfl
      · exact absurd rfl hb
    · show 15 + (j.val - 15) = j.val; omega

/-- The reference's result IS the pooled array of its argument. -/
theorem result_eq : val_main_v30 (F := Ideal) x = pooled x := by
  funext i
  obtain ⟨r, j, rfl⟩ : ∃ (r : Fin 4096) (j : Fin 31), i = ix2 r j := ⟨i 0, i 1, eq_ix2 i⟩
  exact v30_at x r j

end Cert.ReferenceIdeal.RefValue

end
-- ==== Proof.lean ====
/- Multi-resolution max pooling of the rows of a [4096, 16384] array: a kernel against its reference, over the extended reals.

   For each row both programs list 31 numbers: the maximum of the whole row, of its two halves, of its four quarters, of its eight
   eighths and of its sixteen sixteenths — column `j` is the maximum of the row over one bin, a run of consecutive positions
   (Proof/Pool.lean: `pooled`, `binStart`, `binWidth`). The reference takes each bin's maximum directly, by slicing and regrouping the
   row and reducing with a maximum from −∞ (Proof/RefRun.lean: its run; Proof/RefValue.lean: its last stage is `pooled` of the argument).
   The kernel works on blocks of 128 whole rows: it takes the sixteen finest maxima of each row and combines neighbours pairwise,
   level by level, so each coarser bin's maximum is the maximum of the two bins it is cut into (Proof/KernelBlock.lean: the block the
   body leaves is `pooled` of the block it was given; Proof/KernelPooled.lean: the 32 blocks tile the result, which is therefore `pooled`
   of the argument). The two agree because the supremum over a run cut in two is the larger of the two parts' suprema
   (Proof/LibSegSup.lean) — a fact about the order alone, true of every extended real, the infinities included: the precondition that
   the inputs are finite is never used. Nothing was rewritten when the kernel was idealized, so there is nothing to preserve.

   The three frames: the kernel's and the idealized kernel's are the generated frame certificates; the reference has no kernel, and its
   frame is its run with the result dropped. -/
import proofs.«142918_g69295002353911_feedfinal_601_4_alg».proof.Defs
import proofs.«142918_g69295002353911_feedfinal_601_4_alg».proof.Proof.Gen.Kernel
import proofs.«142918_g69295002353911_feedfinal_601_4_alg».proof.Proof.Gen.Kernel.Frame
import proofs.«142918_g69295002353911_feedfinal_601_4_alg».proof.Proof.Gen.KernelIdeal
import proofs.«142918_g69295002353911_feedfinal_601_4_alg».proof.Proof.Gen.KernelIdeal.Frame
import proofs.«142918_g69295002353911_feedfinal_601_4_alg».proof.Proof.Gen.ReferenceIdeal
import proofs.«142918_g69295002353911_feedfinal_601_4_alg».proof.Proof.Gen.Pre_finite_inputs
import proofs.«142918_g69295002353911_feedfinal_601_4_alg».proof.Proof.KernelPooled
import proofs.«142918_g69295002353911_feedfinal_601_4_alg».proof.Proof.RefRun
import proofs.«142918_g69295002353911_feedfinal_601_4_alg».proof.Proof.RefValue
import Idealize.ShloMosaic.Adequacy
import Idealize.ShloMosaic.Init

noncomputable section

namespace Cert.Proof

open Idealize.ShloMosaic Idealize.SL.Sem

/-- The kernel as printed runs and leaves its argument unchanged. -/
theorem frame_k : Cert.frame_Kernel := fun m ρ _ => Cert.Kernel.Gen.frame m ρ

/-- The idealized kernel runs and leaves its argument unchanged. -/
theorem frame_ki : Cert.frame_KernelIdeal := fun m ρ _ => Cert.KernelIdeal.Gen.frame m ρ

/-- The reference runs and leaves its argument unchanged: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Over the extended reals, from memories agreeing on the argument, both programs end with the pooled array of the argument:
    the kernel's result array (Proof/KernelPooled.lean) and the reference's (its run, and its last stage read index by index). -/
theorem algebraic : Cert.algebraic_KernelIdeal_ReferenceIdeal := by
  intro m ρ m' ρ' _ hagree
  refine ⟨_, Cert.KernelIdeal.Pooled.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.result_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
